-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S625000 32) (main_arg2 : IVec S625000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S625000 : Shape := ⟨1, ![625000]⟩
abbrev S128x128 : Shape := ⟨2, ![128, 128]⟩
abbrev S128 : Shape := ⟨1, ![128]⟩
abbrev S10000x128 : Shape := ⟨2, ![10000, 128]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 23
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S100000x128, .f32⟩
  | .hbm, ⟨7, _⟩ => ⟨S_, .i32⟩
  | .hbm, ⟨8, _⟩ => ⟨S625000, .i32⟩
  | .hbm, ⟨9, _⟩ => ⟨S625000, .i1⟩
  | .hbm, ⟨10, _⟩ => ⟨S_, .i32⟩
  | .hbm, ⟨11, _⟩ => ⟨S625000, .i32⟩
  | .hbm, ⟨12, _⟩ => ⟨S625000, .i32⟩
  | .hbm, ⟨13, _⟩ => ⟨S625000, .i32⟩
  | .hbm, ⟨14, _⟩ => ⟨S625000x1, .i32⟩
  | .hbm, ⟨15, _⟩ => ⟨S625000x128, .f32⟩
  | .hbm, ⟨16, _⟩ => ⟨S_, .f32⟩
  | .hbm, ⟨17, _⟩ => ⟨S100000x128, .f32⟩
  | .hbm, ⟨18, _⟩ => ⟨S625000x1, .i32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S10000x128_S128x128_S10000x128_1_0_0_1_n_n_wf : DotDims.WF S10000x128 S128x128 S10000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S100000x128, .f32⟩
  | .hbm, ⟨16, _⟩ => ⟨S625000x1, .i32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.KernelTile.lean ====
/-
  One tile of the kernel: a block of 10000 node rows times the (transposed) weight matrix.

  The body loads a block `x0` of 10000 rows and the whole 128 × 128 matrix `x1`, narrows both to bf16 (the identity
  on the extended reals), and stores their product into a zero accumulator. So the stored tile at (p, q) is
  Σ_k x0(p, k) · x1(k, q).
-/
import proofs.«158692_j62285615726744_2_alg».proof.Proof.Gen.KernelIdeal.Skeleton
import proofs.«158692_j62285615726744_2_alg».proof.Proof.LibPlainDot
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-- The tile product's dimension numbers are those of a plain [10000, 128] × [128, 128] product. -/
theorem dot_plain : PlainDot.IsPlain (M := 10000) (K := 128) (N := 128) dot_S10000x128_S128x128_S10000x128_1_0_0_1_n_n where
  rank := rfl
  size := rfl
  lhs0 := fun i q => by
    unfold DotDims.lhsIdx
    rw [dif_neg (show ¬(0 : Fin S10000x128.rank) ∈ dot_S10000x128_S128x128_S10000x128_1_0_0_1_n_n.lhsBatch by decide),
      dif_pos (show (0 : Fin S10000x128.rank) ∈ dot_S10000x128_S128x128_S10000x128_1_0_0_1_n_n.lhsNonContracting by decide)]
    rfl
  lhs1 := fun i q => dot_S10000x128_S128x128_S10000x128_1_0_0_1_n_n.lhsIdx_val_of_single rfl i q
  rhs0 := fun i q => dot_S10000x128_S128x128_S10000x128_1_0_0_1_n_n.rhsIdx_val_of_single rfl i q
  rhs1 := fun i q => by
    unfold DotDims.rhsIdx
    rw [dif_neg (show ¬(1 : Fin S128x128.rank) ∈ dot_S10000x128_S128x128_S10000x128_1_0_0_1_n_n.rhsBatch by decide),
      dif_pos (show (1 : Fin S128x128.rank) ∈ dot_S10000x128_S128x128_S10000x128_1_0_0_1_n_n.rhsNonContracting by decide)]
    rfl

/-- The stored tile at (p, q): row `p` of the block times column `q` of the matrix. -/
theorem tile_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  rw [shapeCast_self]
  exact PlainDot.matmul_zero_apply dot_S10000x128_S128x128_S10000x128_1_0_0_1_n_n dot_plain none
    (φ₁ := .bf16) (φ₂ := .bf16) x0 x1 p q

end Cert.KernelIdeal.Tile

end
-- ==== Proof.LibRows.lean ====
/-
  Row gather and row scatter-add of a matrix, read at an index.

`x[idx]` of a matrix `x : [N, W]` at a column of row numbers `idx : [E, 1]` is StableHLO's gather with offset axis 1,
collapsed axis 0, start index map [0], index vector axis 1 and slices `[1, W]`: result element `(e, k)` is `x` at row
`idx[e, 0]` (read signed and clamped into `[0, N − 1]`), lane `k`.  The accumulating scatter with update window axis 1,
inserted window axis 0, scatter-to-operand map [0] and index vector axis 1 sends update element `(e, k)` to operand
element `(idx[e, 0], k)` when that row number, read signed and NOT clamped, lies in `[0, N)`, and drops it otherwise;
over the extended reals the scattered array at `(i, j)` is therefore the operand's element plus the sum, over the
update rows `e` whose row number is `i`, of the update's element `(e, j)`.
-/
import Idealize.ShloMosaic.PureOps.Ideal
import Idealize.ShloMosaic.Lib.ValueIdx

noncomputable section

open scoped BigOperators

namespace Cert.LibRows

open Idealize.ShloMosaic Idealize.ShloMosaic.ValueIdx

/-! ## The gather of rows -/

section Gather
variable {α : Type}

/-- The dimension numbers of a row gather: operand `[N, W]`, row numbers `[E, 1]`, result `[E, W]`. -/
abbrev rowGatherDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row the gather reads for result row `e`: the row number `idx[e, 0]`, signed, clamped into `[0, N − 1]`. -/
def gatherRow {N E w : Nat} (hN : 0 < N) (idx : IVec ⟨2, ![E, 1]⟩ w) (e : Fin E) : Fin N :=
  ⟨min (idx (ix2 e 0)).toInt.toNat (N - 1), by omega⟩

/-- THE ROW GATHER READ AT `(e, k)`: the operand at the clamped row, lane `k`. -/
theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowGatherDims N W E wf) x idx (ix2 e k) = x (ix2 (gatherRow hN idx e) k) := by
  unfold Host.gather
  congr 1
  funext a
  refine Fin.ext ?_
  match a with
  | ⟨0, _⟩ =>
    show (rowGatherDims N W E wf).start (ix2 e k) idx 0 + (rowGatherDims N W E wf).batchCoord (ix2 e k) 0
        + (rowGatherDims N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N W E wf).startIndexMap from List.mem_singleton.mpr rfl)]
    have hsi : (rowGatherDims N W E wf).siIdx (ix2 e k) ⟨List.idxOf (0 : Fin 2) (rowGatherDims N W E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N W E wf).start (ix2 e k) idx 1 + (rowGatherDims N W E wf).batchCoord (ix2 e k) 1
        + (rowGatherDims N W E wf).offCoord (ix2 e k) 1 = k.val
    rw [GatherDims.batchCoord_eq_zero _ _ _ List.not_mem_nil]
    have hst : (rowGatherDims N W E wf).start (ix2 e k) idx 1 = 0 := by
      unfold GatherDims.start
      rw [dif_neg (show (1 : Fin 2) ∉ (rowGatherDims N W E wf).startIndexMap from fun h => absurd (List.mem_singleton.mp h) (show (1 : Fin 2) ≠ 0 by decide))]
    rw [hst]
    simp only [Nat.add_zero, Nat.zero_add]
    rfl

end Gather

/-! ## The accumulating scatter of rows -/

section Scatter

/-- The dimension numbers of a row scatter: operand `[N, W]`, row numbers `[E, 1]`, updates `[E, W]`. -/
abbrev rowScatterDims (N W E : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- An operand axis is a window axis exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

variable {N W E w : Nat} (wf : ScatterDims.WF ⟨2, ![N, W]⟩ ⟨2, ![E, 1]⟩ ⟨2, ![E, W]⟩ [1] [0] [0] 1)

theorem start0 (idx : IVec ⟨2, ![E, 1]⟩ w) (e : Fin E) (k : Fin W) :
    (rowScatterDims N W E wf).start (ix2 e k) idx 0 = (idx (ix2 e 0)).toInt := by
  unfold ScatterDims.start
  rw [dif_pos (show (0 : Fin 2) ∈ (rowScatterDims N W E wf).scatterDimsToOperandDims from List.mem_singleton.mpr rfl)]
  have hsi : (rowScatterDims N W E wf).siIdx (ix2 e k) ⟨List.idxOf (0 : Fin 2) (rowScatterDims N W E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem start1 (idx : IVec ⟨2, ![E, 1]⟩ w) (e : Fin E) (k : Fin W) :
    (rowScatterDims N W E wf).start (ix2 e k) idx 1 = 0 := by
  unfold ScatterDims.start
  rw [dif_neg (show (1 : Fin 2) ∉ (rowScatterDims N W E wf).scatterDimsToOperandDims from fun h => absurd (List.mem_singleton.mp h) (show (1 : Fin 2) ≠ 0 by decide))]

theorem window0 (e : Fin E) (k : Fin W) : (rowScatterDims N W E wf).window (ix2 e k) 0 = 0 := by
  unfold ScatterDims.window
  rw [dif_neg (show (0 : Fin 2) ∉ (rowScatterDims N W E wf).sKept from fun h => ((mem_sKept _ _).mp h) (List.mem_singleton.mpr rfl))]

theorem window1 (e : Fin E) (k : Fin W) : (rowScatterDims N W E wf).window (ix2 e k) 1 = k.val := by
  unfold ScatterDims.window
  rw [dif_pos (show (1 : Fin 2) ∈ (rowScatterDims N W E wf).sKept from (mem_sKept _ _).mpr fun h => absurd (List.mem_singleton.mp h) (show (1 : Fin 2) ≠ 0 by decide))]
  rfl

/-- Update element `(e, k)` lands on operand element `(i, j)` exactly when row `e`'s row number, read signed,
    is `i`, and the lanes agree. -/
theorem resultIdx?_rows_iff (idx : IVec ⟨2, ![E, 1]⟩ w) (e : Fin E) (k : Fin W) (i : Fin N) (j : Fin W) :
    (rowScatterDims N W E wf).resultIdx? (ix2 e k) idx = some (ix2 i j)
      ↔ (idx (ix2 e 0)).toInt = (i.val : Int) ∧ k = j := by
  have hs0 := start0 wf idx e k
  have hs1 := start1 wf idx e k
  have hw0 := window0 wf e k
  have hw1 := window1 wf e k
  unfold ScatterDims.resultIdx?
  split
  · rename_i h
    rw [Option.some.injEq]
    constructor
    · intro hf
      have h0 := congrArg (fun f => (f 0).val) hf
      have h1 := congrArg (fun f => (f 1).val) hf
      simp only [hs0, hs1, hw0, hw1] at h0 h1
      have hh := (h 0).1
      rw [hs0, hw0] at hh
      refine ⟨?_, Fin.ext ?_⟩
      · have : ((idx (ix2 e 0)).toInt + ((0 : Nat) : Int)).toNat = i.val := h0
        omega
      · have : ((0 : Int) + ((k.val : Nat) : Int)).toNat = j.val := h1
        omega
    · rintro ⟨hi, rfl⟩
      funext a
      refine Fin.ext ?_
      match a with
      | ⟨0, _⟩ =>
        show ((rowScatterDims N W E wf).start (ix2 e k) idx 0 + ((rowScatterDims N W E wf).window (ix2 e k) 0 : Nat)).toNat = i.val
        rw [hs0, hw0, hi]; simp
      | ⟨1, _⟩ =>
        show ((rowScatterDims N W E wf).start (ix2 e k) idx 1 + ((rowScatterDims N W E wf).window (ix2 e k) 1 : Nat)).toNat = k.val
        rw [hs1, hw1]; simp
  · rename_i h
    constructor
    · intro hf; exact absurd hf (by simp)
    · rintro ⟨hi, rfl⟩
      exfalso
      apply h
      intro a
      match a with
      | ⟨0, _⟩ =>
        show 0 ≤ (rowScatterDims N W E wf).start (ix2 e k) idx 0 + ((rowScatterDims N W E wf).window (ix2 e k) 0 : Nat)
          ∧ (rowScatterDims N W E wf).start (ix2 e k) idx 0 + ((rowScatterDims N W E wf).window (ix2 e k) 0 : Nat) < (N : Int)
        rw [hs0, hw0, hi]
        have := i.isLt
        constructor <;> omega
      | ⟨1, _⟩ =>
        show 0 ≤ (rowScatterDims N W E wf).start (ix2 e k) idx 1 + ((rowScatterDims N W E wf).window (ix2 e k) 1 : Nat)
          ∧ (rowScatterDims N W E wf).start (ix2 e k) idx 1 + ((rowScatterDims N W E wf).window (ix2 e k) 1 : Nat) < (W : Int)
        rw [hs1, hw1]
        have := k.isLt
        constructor <;> omega

/-- THE ROW SCATTER-ADD READ AT `(i, j)` over the extended reals: the operand's element plus the sum of the update's
    lane `j` over the update rows whose row number is `i`. -/
theorem scatterAdd_rows_apply (x : (⟨2, ![N, W]⟩ : Shape).Idx → EReal) (idx : IVec ⟨2, ![E, 1]⟩ w)
    (U : (⟨2, ![E, W]⟩ : Shape).Idx → EReal) (i : Fin N) (j : Fin W) :
    Host.scatterAdd (F := Ideal) (φ := .f32) (rowScatterDims N W E wf) x idx U (ix2 i j)
      = x (ix2 i j) + ∑ e ∈ Finset.univ.filter (fun e : Fin E => (idx (ix2 e 0)).toInt = (i.val : Int)), U (ix2 e j) := by
  show Ideal.hostScatterAdd (rowScatterDims N W E wf) x idx U (ix2 i j) = _
  unfold Ideal.hostScatterAdd
  congr 1
  refine Finset.sum_bij (fun u _ => (u 0 : Fin E)) ?_ ?_ ?_ ?_
  · intro u hu
    rw [Finset.mem_filter] at hu
    rw [eq_ix2 u] at hu
    exact Finset.mem_filter.mpr ⟨Finset.mem_univ _, ((resultIdx?_rows_iff wf idx _ _ i j).mp hu.2).1⟩
  · intro u hu u' hu' h
    rw [Finset.mem_filter] at hu hu'
    have e1 := hu.2; have e2 := hu'.2
    rw [eq_ix2 u] at e1; rw [eq_ix2 u'] at e2
    have k1 := ((resultIdx?_rows_iff wf idx _ _ i j).mp e1).2
    have k2 := ((resultIdx?_rows_iff wf idx _ _ i j).mp e2).2
    rw [eq_ix2 u, eq_ix2 u']
    have h' : (u 0 : Fin E) = (u' 0 : Fin E) := h
    rw [h', show (u 1 : Fin W) = (u' 1 : Fin W) from k1.trans k2.symm]
  · intro e he
    rw [Finset.mem_filter] at he
    refine ⟨ix2 e j, ?_, rfl⟩
    rw [Finset.mem_filter]
    exact ⟨Finset.mem_univ _, (resultIdx?_rows_iff wf idx e j i j).mpr ⟨he.2, rfl⟩⟩
  · intro u hu
    rw [Finset.mem_filter] at hu
    have e1 := hu.2
    rw [eq_ix2 u] at e1
    have k1 := ((resultIdx?_rows_iff wf idx _ _ i j).mp e1).2
    conv_lhs => rw [eq_ix2 u]
    rw [show (u 1 : Fin W) = j from k1]
    rfl

end Scatter

end Cert.LibRows

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«158692_j62285615726744_2_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.LibAggregateLaw.lean ====
/-
  Aggregating rows before or after a linear map.

  Let `a e k` be real numbers indexed by a message `e` and a feature `k`, and `w k` a real column. Summing, over a finite
  set `S` of messages, each message's inner product with the column gives the same number as the inner product of the
  summed messages with the column:
      Σ_{e ∈ S} Σ_k a e k · w k  =  Σ_k (Σ_{e ∈ S} a e k) · w k.
  Over the extended reals the right-hand side distributes a factor over a sum, which is only valid when nothing is
  infinite; so the entries are assumed to be real numbers, and the identity is the exchange of two finite sums of reals.
-/
import Idealize.ShloMosaic.PureOps.Ideal

noncomputable section

open scoped BigOperators

namespace Cert.AggregateLaw

/-- The inclusion of the reals in the extended reals commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- For real entries, the sum over the messages of `S` of each message's inner product with a column is the inner product
    of the summed messages with that column. -/
theorem sum_dot_eq_dot_sum {ι κ : Type*} [Fintype κ] (S : Finset ι) (a : ι → κ → EReal) (w : κ → EReal)
    (ha : ∀ e k, ∃ r : ℝ, a e k = (r : EReal)) (hw : ∀ k, ∃ r : ℝ, w k = (r : EReal)) :
    ∑ e ∈ S, ∑ k, a e k * w k = ∑ k, (∑ e ∈ S, a e k) * w k := by
  choose ar har using ha
  choose wr hwr using hw
  have hL : ∀ e, ∑ k, a e k * w k = ((∑ k, ar e k * wr k : ℝ) : EReal) := fun e => by
    rw [coe_sum]
    exact Finset.sum_congr rfl fun k _ => by rw [har, hwr, EReal.coe_mul]
  have hR : ∀ k, (∑ e ∈ S, a e k) * w k = ((∑ e ∈ S, ar e k * wr k : ℝ) : EReal) := fun k => by
    rw [Finset.sum_congr rfl (fun e _ => har e k), ← coe_sum, hwr, ← EReal.coe_mul, Finset.sum_mul]
  rw [Finset.sum_congr rfl (fun e _ => hL e), Finset.sum_congr rfl (fun k _ => hR k), ← coe_sum, ← coe_sum,
    Finset.sum_comm]

end Cert.AggregateLaw

end
-- ==== Proof.LibMessageLinear.lean ====
/-
  Message passing commutes with a linear map, at the level of whole arrays.

  A graph layer gathers the rows `x[src[e]]` of a node table, adds each gathered row into the row `dst[e]` of a table of
  zeros, and multiplies the result by a weight matrix `w`. Because the product is linear in its left operand, the same
  table comes out when every node's row is multiplied by `w` first (`projected x w`) and the products are gathered
  and added instead:
      scatter-add(0, dst, gather(x · w, src))  =  scatter-add(0, dst, gather(x, src)) · w.
  Entry (v, j) of either side is the sum over the edges `e` whose destination is `v` of Σ_k x(src e, k) · w(k, j); the two
  sides differ in whether the sum over edges or the sum over `k` is outermost, and in whether the factor `w(k, j)`
  multiplies each term or the edge sum, which agree for real entries (`AggregateLaw.sum_dot_eq_dot_sum`). The row and
  destination numbers are arbitrary 32-bit words: both sides clamp the gathered row number and drop an out-of-range
  destination in the same way, so nothing is assumed of them.
-/
import proofs.«158692_j62285615726744_2_alg».proof.Proof.LibRows
import proofs.«158692_j62285615726744_2_alg».proof.Proof.LibPlainDotGeneral
import proofs.«158692_j62285615726744_2_alg».proof.Proof.LibAggregateLaw

noncomputable section

open scoped BigOperators

namespace Cert.TailLaw

open Idealize.ShloMosaic Idealize.ShloMosaic.ValueIdx Cert.LibRows

variable {N K J E : Nat}

/-- The node table multiplied by the weight matrix: entry (r, j) is Σ_k x(r, k) · w(k, j). -/
def projected (x : (⟨2, ![N, K]⟩ : Shape).Idx → EReal) (w : (⟨2, ![K, J]⟩ : Shape).Idx → EReal) :
    (⟨2, ![N, J]⟩ : Shape).Idx → EReal :=
  fun i => ∑ k : Fin K, x (ix2 (i 0) k) * w (ix2 k (i 1))

/-- Gathering and adding the projected rows is projecting the gathered and added rows, for real tables `x` and `w` and a
    zero table `zJ` / `zK` to add into. -/
theorem aggregate_projected (hN : 0 < N)
    (gJ : GatherDims.WF ⟨2, ![N, J]⟩ ⟨2, ![E, 1]⟩ ⟨2, ![E, J]⟩ [1] [0] [] [0] [] 1 ![1, J])
    (gK : GatherDims.WF ⟨2, ![N, K]⟩ ⟨2, ![E, 1]⟩ ⟨2, ![E, K]⟩ [1] [0] [] [0] [] 1 ![1, K])
    (sJ : ScatterDims.WF ⟨2, ![N, J]⟩ ⟨2, ![E, 1]⟩ ⟨2, ![E, J]⟩ [1] [0] [0] 1)
    (sK : ScatterDims.WF ⟨2, ![N, K]⟩ ⟨2, ![E, 1]⟩ ⟨2, ![E, K]⟩ [1] [0] [0] 1)
    (D : DotDims ⟨2, ![N, K]⟩ ⟨2, ![K, J]⟩ ⟨2, ![N, J]⟩) (hD : PlainDot.IsPlain D) (prec : Option ContractPrecision)
    (x : (⟨2, ![N, K]⟩ : Shape).Idx → EReal) (w : (⟨2, ![K, J]⟩ : Shape).Idx → EReal)
    (zJ : (⟨2, ![N, J]⟩ : Shape).Idx → EReal) (zK : (⟨2, ![N, K]⟩ : Shape).Idx → EReal)
    (src dst : IVec ⟨2, ![E, 1]⟩ 32)
    (hzJ : ∀ i, zJ i = 0) (hzK : ∀ i, zK i = 0)
    (hx : ∀ i, ∃ r : ℝ, x i = (r : EReal)) (hw : ∀ i, ∃ r : ℝ, w i = (r : EReal)) :
    Host.scatterAdd (F := Ideal) (φ := .f32) (rowScatterDims N J E sJ) zJ dst
        (Host.gather (rowGatherDims N J E gJ) (projected x w) src)
      = Host.dotGeneral (F := Ideal) (φ₁ := .f32) (φ₂ := .f32) D prec
          (Host.scatterAdd (F := Ideal) (φ := .f32) (rowScatterDims N K E sK) zK dst
            (Host.gather (rowGatherDims N K E gK) x src)) w := by
  funext i
  obtain ⟨v, j, rfl⟩ : ∃ (v : Fin N) (j : Fin J), i = ix2 v j := ⟨i 0, i 1, eq_ix2 i⟩
  -- the left side: the edges into `v`, each contributing its projected source row at lane `j`
  have hL : Host.scatterAdd (F := Ideal) (φ := .f32) (rowScatterDims N J E sJ) zJ dst
        (Host.gather (rowGatherDims N J E gJ) (projected x w) src) (ix2 v j)
      = ∑ e ∈ Finset.univ.filter (fun e : Fin E => (dst (ix2 e 0)).toInt = (v.val : Int)),
          ∑ k : Fin K, x (ix2 (gatherRow hN src e) k) * w (ix2 k j) := by
    rw [scatterAdd_rows_apply, hzJ, zero_add]
    exact Finset.sum_congr rfl fun e _ => by rw [gather_rows_apply hN]; rfl
  -- the right side: row `v` of the added source rows, multiplied by column `j`
  have hR : Host.dotGeneral (F := Ideal) (φ₁ := .f32) (φ₂ := .f32) D prec
          (Host.scatterAdd (F := Ideal) (φ := .f32) (rowScatterDims N K E sK) zK dst
            (Host.gather (rowGatherDims N K E gK) x src)) w (ix2 v j)
      = ∑ k : Fin K, (∑ e ∈ Finset.univ.filter (fun e : Fin E => (dst (ix2 e 0)).toInt = (v.val : Int)),
          x (ix2 (gatherRow hN src e) k)) * w (ix2 k j) := by
    rw [PlainDot.dotGeneral_apply D hD]
    refine Finset.sum_congr rfl fun k _ => ?_
    rw [scatterAdd_rows_apply, hzK, zero_add]
    congr 1
    exact Finset.sum_congr rfl fun e _ => gather_rows_apply hN gK x src e k
  rw [hL, hR]
  exact AggregateLaw.sum_dot_eq_dot_sum _ (fun e k => x (ix2 (gatherRow hN src e) k)) (fun k => w (ix2 k j))
    (fun e k => hx _) (fun k => hw _)

end Cert.TailLaw

end
-- ==== Proof.KernelRows.lean ====
/-
  What the kernel's region leaves in its output array: every node row multiplied by the transposed weight matrix.

  The region's grid has ten points; point `t` reads rows 10000·t … 10000·t + 9999 of the node table and the whole
  128 × 128 matrix (the transpose of the weight matrix, which the host computed before the region), and writes back the
  tile product to the same rows of the output. The ten row blocks tile the 100000 rows, so the output array ends as the
  one function `TailLaw.projected`: entry (r, j) is Σ_k x(r, k) · wT(k, j).
-/
import proofs.«158692_j62285615726744_2_alg».proof.Proof.Gen.KernelIdeal.Frame
import proofs.«158692_j62285615726744_2_alg».proof.Proof.KernelTile
import proofs.«158692_j62285615726744_2_alg».proof.Proof.LibMessageLinear
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Rows

open Cert.KernelIdeal Cert.KernelIdeal.Gen Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- The projected node table, from the arrays as the region finds them. -/
def rowsOut (c : Dev nD) : S100000x128.Idx → EReal :=
  TailLaw.projected (N := 100000) (K := 128) (J := 128) (V m c main_arg0) (V m c main_v0)

/-- The printed index maps over the grid: the node block and the output block of point `t` are row block `t`, and the
    matrix window stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the projected node table. -/
theorem flushed_eq (c : Dev nD) (t : Fin cfg0.N) :
    (dats m 0 c).flushed 2 t = ((cfg0.win 2).blk t).view.read (Elt Ideal) (rowsOut m c) := by
  show (cfg0.win 2).cut (grid0.coords t) ((dats m 0 c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  show k0_pay1 (F := Ideal) (iblk m c 0 t) (iblk m c 1 t) (ix2 p q) = rowsOut m c (((cfg0.win 2).blk t).view.emb (ix2 p q))
  rw [Tile.tile_apply]
  unfold rowsOut TailLaw.projected
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have r0 : iblk m c 0 t (ix2 p k) = V m c main_arg0 (ix2 ((((cfg0.win 2).blk t).view.emb (ix2 p q)) 0) k) :=
    congrArg (V m c main_arg0) h0
  have r1 : iblk m c 1 t (ix2 k q) = V m c main_v0 (ix2 k ((((cfg0.win 2).blk t).view.emb (ix2 p q)) 1)) :=
    congrArg (V m c main_v0) h1
  rw [r0, r1]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v1).slice (win0_2.rect t)).set ↔ _
  rw [View.set_slice_whole, Rect.mem_set_unit]
  exact Iff.rfl

/-- Row `r` lies in the block of point `r / 10000`: the ten blocks cover the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  have ht : (i 0).val / 10000 < grid0.N := by omega
  obtain ⟨-, -, -, -, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    rw [e5]; omega

/-- THE OUTPUT ARRAY after the region: the projected node table. -/
theorem final (c : Dev nD) : (dats m 0 c).arrAt 2 cfg0.N = rowsOut m c :=
  (dats m 0 c).arrAt_eq_of_cover 2 (rowsOut m c) (fun t _ => flushed_eq m c t) cover

/-- The matrix the region multiplies by is the transpose of the weight matrix, computed by the host before the region. -/
theorem V_main_v0 (c : Dev nD) :
    V m c main_v0 = transpose S128x128 [1, 0] (m ((c : Thread nD τ).loc main_arg3)) transposes_S128x128_S128x128_1_0 := by
  show StableHlo.after hostOps0 (fun b => m (c, b)) (Proc.devRef .tc main_v0) = _
  after_results

/-- The projected node table from the arguments as launched. -/
theorem rowsOut_eq (c : Dev nD) : rowsOut m c = TailLaw.projected (N := 100000) (K := 128) (J := 128)
    (m ((c : Thread nD τ).loc main_arg0))
    (transpose S128x128 [1, 0] (m ((c : Thread nD τ).loc main_arg3)) transposes_S128x128_S128x128_1_0) := by
  unfold rowsOut
  rw [V_main_arg0, V_main_v0]

end Cert.KernelIdeal.Rows

end
-- ==== Proof.KernelRun.lean ====
/-
  The kernel program's run, read: its result as one function of the arguments.

  After the region the host gathers the projected rows at the (wrapped) source numbers, adds each gathered row into the
  row of its destination number in a table of zeros, and adds the bias row to every row. `tail` names those lines as one
  function of the region's output array and of the arguments; the run ends with the result array at `tail` of the
  projected node table, and with every argument as launched.
-/
import proofs.«158692_j62285615726744_2_alg».proof.Proof.KernelRows

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Rows Idealize.ShloMosaic.StableHlo

variable (m : (ℓ : Loc nD τ sig) → Buf (Elt Ideal) ℓ) (ρ : Dev nD → PrngReg)

/-- The host lines after the region: gather the rows of `y` at the source numbers `a1` (a negative number wrapped by
    100000 first), add them into zeros at the destination numbers `a2`, add the bias row `a4`. -/
def tail (y : S100000x128.Idx → EReal) (a1 a2 : IVec S625000 32) (a4 : S128.Idx → EReal) : S100000x128.Idx → EReal :=
  addf (F := Ideal) (φ := .f32)
    (Host.scatterAdd (F := Ideal) (φ := .f32) scatter_S100000x128_S625000x1_S625000x128_1_0_0_1
      (broadcastInDim S100000x128 ![] bcast_S_S100000x128 (constant (F := Ideal) S_ .f32 0x00000000#32))
      (broadcastInDim S625000x1 ![0] bcast_S625000_S625000x1_0 a2)
      (Host.gather gather_S100000x128_S625000x1_S625000x128_1_0_n_n_0_1_1128 y
        (broadcastInDim S625000x1 ![0] bcast_S625000_S625000x1_0
          (select (cmpi .slt a1 (broadcastInDim S625000 ![] bcast_S_S625000 (constantI S_ 32 0#32)))
            (addi a1 (broadcastInDim S625000 ![] bcast_S_S625000 (constantI S_ 32 100000#32))) a1))))
    (broadcastInDim S100000x128 ![0, 1] bcast_S1x128_S100000x128_0_1 (broadcastInDim S1x128 ![1] bcast_S128_S1x128_1 a4))

/-- The result buffer after the host lines that follow the region. -/
theorem result_eq (c : Dev nD) :
    Pipeline.afterTail₀ cfgs (dats m) 0 (V0 m) [hostOps1] c main_v14
      = tail (rowsOut m c) (m ((c : Thread nD τ).loc main_arg1)) (m ((c : Thread nD τ).loc main_arg2))
          (m ((c : Thread nD τ).loc main_arg4)) := by
  unfold Pipeline.afterTail₀
  show StableHlo.after hostOps1 _ (Proc.devRef .tc main_v14) = _
  after_results
  have hY : Pipeline.withArrays (cfgs 0).spec c (V0 m c) (fun w => (dats m 0 c).arrAt w (cfgs 0).N)
      (Proc.devRef .tc main_v1) = rowsOut m c :=
    (Pipeline.withArrays_arr spec0 launch0.win.arr_inj c (V0 m c) (fun w => (dats m 0 c).arrAt w cfg0.N) 2).trans
      (final m c)
  have h1 : Pipeline.withArrays (cfgs 0).spec c (V0 m c) (fun w => (dats m 0 c).arrAt w (cfgs 0).N)
      (Proc.devRef .tc main_arg1) = m ((c : Thread nD τ).loc main_arg1) :=
    (Pipeline.withArrays_of_ne spec0 c (V0 m c) _ main_arg1
      (by exact (by decide : ∀ w, Pipeline.arrRef spec0 w ≠ main_arg1))).trans (V_main_arg1 m c)
  have h2 : Pipeline.withArrays (cfgs 0).spec c (V0 m c) (fun w => (dats m 0 c).arrAt w (cfgs 0).N)
      (Proc.devRef .tc main_arg2) = m ((c : Thread nD τ).loc main_arg2) :=
    (Pipeline.withArrays_of_ne spec0 c (V0 m c) _ main_arg2
      (by exact (by decide : ∀ w, Pipeline.arrRef spec0 w ≠ main_arg2))).trans (V_main_arg2 m c)
  have h4 : Pipeline.withArrays (cfgs 0).spec c (V0 m c) (fun w => (dats m 0 c).arrAt w (cfgs 0).N)
      (Proc.devRef .tc main_arg4) = m ((c : Thread nD τ).loc main_arg4) :=
    (Pipeline.withArrays_of_ne spec0 c (V0 m c) _ main_arg4
      (by exact (by decide : ∀ w, Pipeline.arrRef spec0 w ≠ main_arg4))).trans (V_main_arg4 m c)
  rw [hY, h1, h2, h4]
  rfl

/-- THE RUN, READ: every weakly fair execution of the kernel program terminates with the result array at `tail` of
    the projected node table and every argument as launched. -/
theorem run : θ_run defs (onTc (τ := τ) (main (F := Ideal))) ⟨m, fun _ => 0, ρ⟩ fun r => ∀ c : Dev nD,
      r.2.mem ((c.tc : Thread nD τ).loc main_v14)
        = tail (rowsOut m c) (m ((c : Thread nD τ).loc main_arg1)) (m ((c : Thread nD τ).loc main_arg2))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v14 (Pipeline.mem_restRefs_of main_v14 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.Bridge.lean ====
/-
  The kernel program and the reference compute one function of the arguments.

  The kernel multiplies every node row by the transposed weight matrix first and passes the products along the edges
  (gather at the source numbers, add into zeros at the destination numbers); the reference passes the raw rows along
  the edges and multiplies the aggregated table by the transposed weight matrix afterwards. Both then add the bias row.
  The source and destination numbers go through the same operations on both sides, so they are carried as they are;
  the two orders agree by `TailLaw.aggregate_projected` when the node table and the weight matrix hold real numbers.
-/
import proofs.«158692_j62285615726744_2_alg».proof.Proof.KernelRun
import proofs.«158692_j62285615726744_2_alg».proof.Proof.Gen.ReferenceIdeal.Read

noncomputable section

open scoped BigOperators

namespace Cert.Bridge

open Idealize.ShloMosaic Idealize.ShloMosaic.ValueIdx

/-- The reference's matrix product has the dimension numbers of a plain [100000, 128] × [128, 128] product. -/
theorem ref_dot_plain : PlainDot.IsPlain (M := 100000) (K := 128) (N := 128)
    Cert.ReferenceIdeal.dot_S100000x128_S128x128_S100000x128_1_0_0_1_n_n where
  rank := rfl
  size := rfl
  lhs0 := Cert.ReferenceIdeal.Read.lhs_main_v11_0
  lhs1 := Cert.ReferenceIdeal.Read.lhs_main_v11_1
  rhs0 := Cert.ReferenceIdeal.Read.rhs_main_v11_0
  rhs1 := Cert.ReferenceIdeal.Read.rhs_main_v11_1

/-- The table the messages are added into is zero everywhere. -/
theorem zeros_apply (i : Cert.KernelIdeal.S100000x128.Idx) :
    broadcastInDim Cert.KernelIdeal.S100000x128 ![] Cert.KernelIdeal.Gen.bcast_S_S100000x128
      (constant (F := Ideal) Cert.KernelIdeal.S_ .f32 0x00000000#32) i = (0 : EReal) :=
  Ideal.ofBits_zero_f32

/-- THE TWO RESULTS ARE ONE FUNCTION of the arguments, for a real node table `x0` and a real weight matrix `x3`. -/
theorem kernel_eq_reference (x0 : FVec Ideal Cert.KernelIdeal.S100000x128 .f32) (x1 x2 : IVec Cert.KernelIdeal.S625000 32)
    (x3 : FVec Ideal Cert.KernelIdeal.S128x128 .f32) (x4 : FVec Ideal Cert.KernelIdeal.S128 .f32)
    (hx : ∀ i, ∃ r : ℝ, x0 i = (r : EReal)) (hW : ∀ i, ∃ r : ℝ, x3 i = (r : EReal)) :
    Cert.KernelIdeal.Hand.tail
        (TailLaw.projected (N := 100000) (K := 128) (J := 128) x0
          (transpose Cert.KernelIdeal.S128x128 [1, 0] x3 Cert.KernelIdeal.Gen.transposes_S128x128_S128x128_1_0)) x1 x2 x4
      = Cert.ReferenceIdeal.Read.val_main_v14 (F := Ideal) x0 x1 x2 x3 x4 := by
  have key := TailLaw.aggregate_projected (N := 100000) (K := 128) (J := 128) (E := 625000) (by omega)
    Cert.KernelIdeal.Gen.gather_S100000x128_S625000x1_S625000x128_1_0_n_n_0_1_1128_wf
    Cert.KernelIdeal.Gen.gather_S100000x128_S625000x1_S625000x128_1_0_n_n_0_1_1128_wf
    Cert.KernelIdeal.Gen.scatter_S100000x128_S625000x1_S625000x128_1_0_0_1_wf
    Cert.KernelIdeal.Gen.scatter_S100000x128_S625000x1_S625000x128_1_0_0_1_wf
    Cert.ReferenceIdeal.dot_S100000x128_S128x128_S100000x128_1_0_0_1_n_n ref_dot_plain none
    x0 (transpose Cert.KernelIdeal.S128x128 [1, 0] x3 Cert.KernelIdeal.Gen.transposes_S128x128_S128x128_1_0)
    (broadcastInDim Cert.KernelIdeal.S100000x128 ![] Cert.KernelIdeal.Gen.bcast_S_S100000x128
      (constant (F := Ideal) Cert.KernelIdeal.S_ .f32 0x00000000#32))
    (broadcastInDim Cert.KernelIdeal.S100000x128 ![] Cert.KernelIdeal.Gen.bcast_S_S100000x128
      (constant (F := Ideal) Cert.KernelIdeal.S_ .f32 0x00000000#32))
    (broadcastInDim Cert.KernelIdeal.S625000x1 ![0] Cert.KernelIdeal.Gen.bcast_S625000_S625000x1_0
      (select (cmpi .slt x1 (broadcastInDim Cert.KernelIdeal.S625000 ![] Cert.KernelIdeal.Gen.bcast_S_S625000
          (constantI Cert.KernelIdeal.S_ 32 0#32)))
        (addi x1 (broadcastInDim Cert.KernelIdeal.S625000 ![] Cert.KernelIdeal.Gen.bcast_S_S625000
          (constantI Cert.KernelIdeal.S_ 32 100000#32))) x1))
    (broadcastInDim Cert.KernelIdeal.S625000x1 ![0] Cert.KernelIdeal.Gen.bcast_S625000_S625000x1_0 x2)
    zeros_apply zeros_apply hx (fun i => hW _)
  -- both programs' gather and scatter records are the row gather and the row scatter of `LibRows`
  have e1 : Cert.KernelIdeal.scatter_S100000x128_S625000x1_S625000x128_1_0_0_1
      = Cert.LibRows.rowScatterDims 100000 128 625000
          Cert.KernelIdeal.Gen.scatter_S100000x128_S625000x1_S625000x128_1_0_0_1_wf := rfl
  have e2 : Cert.KernelIdeal.gather_S100000x128_S625000x1_S625000x128_1_0_n_n_0_1_1128
      = Cert.LibRows.rowGatherDims 100000 128 625000
          Cert.KernelIdeal.Gen.gather_S100000x128_S625000x1_S625000x128_1_0_n_n_0_1_1128_wf := rfl
  have e3 : Cert.ReferenceIdeal.scatter_S100000x128_S625000x1_S625000x128_1_0_0_1
      = Cert.LibRows.rowScatterDims 100000 128 625000
          Cert.KernelIdeal.Gen.scatter_S100000x128_S625000x1_S625000x128_1_0_0_1_wf := rfl
  have e4 : Cert.ReferenceIdeal.gather_S100000x128_S625000x1_S625000x128_1_0_n_n_0_1_1128
      = Cert.LibRows.rowGatherDims 100000 128 625000
          Cert.KernelIdeal.Gen.gather_S100000x128_S625000x1_S625000x128_1_0_n_n_0_1_1128_wf := rfl
  unfold Cert.KernelIdeal.Hand.tail
  rw [← Cert.ReferenceIdeal.Read.val_main_v14_eq, e1, e2, key, e3, e4]

end Cert.Bridge

end
-- ==== Proof.LibFiniteAll.lean ====
/-
  `jnp.all(|x| < inf)` read back at the extended reals: when the reduction by `and` of the comparisons of every entry's
  absolute value with the +infinity constant comes out true, every entry of the array is a real number (neither infinity:
  the absolute value of either infinity is +infinity, which is not below itself). Nothing here depends on a program.
-/
import Idealize.ShloMosaic.Lib.ReduceAll
import Idealize.ShloMosaic.Lib.ValueIdx
import Idealize.ShloMosaic.PureOps.Ideal.Laws

noncomputable section

namespace FiniteAll

open Idealize.ShloMosaic

/-- The f32 word with all exponent bits set and no fraction is +infinity. -/
theorem inf_f32 : Ideal.ofBits .f32 0x7F800000#32 = ⊤ := by simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton (⟨0, ![]⟩ : Shape).Idx := ⟨fun a b => funext fun d => d.elim0⟩

/-- If the `and` over all entries of `|x| < +inf` is true, every entry of `x` is a real number. -/
theorem all_real {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
          (constantI ⟨0, ![]⟩ 1 1#1) h hu j = 1#1) (i : s.Idx) : ∃ r : ℝ, x i = (r : EReal) := by
  have hi := Host.reduce_andi_all _ _ h hu j e i
  have hi' : Ideal.cmp .olt (max (x i) (-(x i))) (Ideal.ofBits .f32 0x7F800000#32) = 1#1 := hi
  rw [inf_f32] at hi'
  unfold Ideal.cmp at hi'
  refine real_of_abs_lt_top (x i) ?_
  by_contra hc
  simp [hc] at hi'

end FiniteAll

end
-- ==== Proof.FiniteInputs.lean ====
/-
  The precondition read back: the node table and the weight matrix hold real numbers.

  The precondition is the conjunction of three tests `all(|a| < +inf)`, one per float input, evaluated to true. Each
  conjunct says that no entry of its array is an infinity, that is, every entry is a real number. Only the node table's
  and the weight matrix's conjuncts are used (the bias is added once on both sides, so it may be anything).
-/
import proofs.«158692_j62285615726744_2_alg».proof.Pre_finite_inputs
import proofs.«158692_j62285615726744_2_alg».proof.Proof.LibFiniteAll
import Idealize.ShloMosaic.Lib.Affine

noncomputable section

namespace Cert.FiniteInputs

open Idealize.ShloMosaic Cert.Pre_finite_inputs

variable [Cert.Pre_finite_inputs.Facts]
open Cert.Pre_finite_inputs.Facts

/-- Under the precondition every entry of the node table and of the weight matrix is a real number. -/
theorem reals (x : FVec Ideal S100000x128 .f32) (a1 a2 : IVec S625000 32) (W : FVec Ideal S128x128 .f32)
    (b : FVec Ideal S128 .f32) (h : Cert.Pre_finite_inputs.fn (F := Ideal) x a1 a2 W b = fun _ => 1#1) :
    (∀ i, ∃ r : ℝ, x i = (r : EReal)) ∧ (∀ i, ∃ r : ℝ, W i = (r : EReal)) := by
  have h0 := congrFun h ValueIdx.ix0
  dsimp only [Cert.Pre_finite_inputs.fn] at h0
  obtain ⟨h12, -⟩ := IntOp.andi_eq_one.mp h0
  obtain ⟨h1, h2⟩ := IntOp.andi_eq_one.mp h12
  exact ⟨FiniteAll.all_real x bcast_S_S100000x128 reducesTo_S100000x128_S_d0_1 h_S_ ValueIdx.ix0 h1,
    FiniteAll.all_real W bcast_S_S128x128 reducesTo_S128x128_S_d0_1 h_S_ ValueIdx.ix0 h2⟩

end Cert.FiniteInputs

end
-- ==== Proof.lean ====
/-
  A graph layer: node features are passed along the edges (row `src[e]` of the table is added into row `dst[e]` of
  a table of zeros), multiplied by the transposed weight matrix, and shifted by the bias row. The reference aggregates
  first and multiplies afterwards; the kernel multiplies every node row first (a Pallas region over ten blocks of 10000
  rows) and aggregates the products on the host. The product is linear in the node table, so for real node features and
  weights the two orders give the same table (`Bridge.kernel_eq_reference`, over `TailLaw.aggregate_projected`); the
  precondition supplies exactly that (`FiniteInputs.reals`). The source and destination numbers are never inspected: both
  programs wrap, clamp and drop them in the same way.

  The three frames are the generated ones (the reference's from its generated run); the idealization rewrote nothing, so
  `preserves` is trivial.
-/
import proofs.«158692_j62285615726744_2_alg».proof.Defs
import proofs.«158692_j62285615726744_2_alg».proof.Proof.Gen.Kernel
import proofs.«158692_j62285615726744_2_alg».proof.Proof.Gen.Kernel.Skeleton
import proofs.«158692_j62285615726744_2_alg».proof.Proof.Gen.Kernel.Launch
import proofs.«158692_j62285615726744_2_alg».proof.Proof.Gen.Kernel.Points
import proofs.«158692_j62285615726744_2_alg».proof.Proof.Gen.Kernel.Frame
import proofs.«158692_j62285615726744_2_alg».proof.Proof.Gen.KernelIdeal
import proofs.«158692_j62285615726744_2_alg».proof.Proof.Gen.KernelIdeal.Skeleton
import proofs.«158692_j62285615726744_2_alg».proof.Proof.Gen.KernelIdeal.Launch
import proofs.«158692_j62285615726744_2_alg».proof.Proof.Gen.KernelIdeal.Points
import proofs.«158692_j62285615726744_2_alg».proof.Proof.Gen.KernelIdeal.Frame
import proofs.«158692_j62285615726744_2_alg».proof.Proof.Gen.ReferenceIdeal
import proofs.«158692_j62285615726744_2_alg».proof.Proof.Gen.Pre_finite_inputs
import proofs.«158692_j62285615726744_2_alg».proof.Proof.Gen.ReferenceIdeal.Run
import proofs.«158692_j62285615726744_2_alg».proof.Proof.Gen.ReferenceIdeal.Read
import proofs.«158692_j62285615726744_2_alg».proof.Proof.Bridge
import proofs.«158692_j62285615726744_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's function of the arguments: the reference by its generated
    run, the kernel program by its run read back and the equality of the two orders of aggregation for real inputs. -/
theorem algebraic : Cert.algebraic_KernelIdeal_ReferenceIdeal := by
  intro m ρ m' ρ' hpre hagree
  refine ⟨fun c => Cert.ReferenceIdeal.Read.val_main_v14 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Hand.run m ρ)
    obtain ⟨hx, hW⟩ := Cert.FiniteInputs.reals _ _ _ _ _ (hpre c)
    rw [Cert.KernelIdeal.Rows.rowsOut_eq]
    exact Cert.Bridge.kernel_eq_reference _ _ _ _ _ hx hW
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v14_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
